-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S512x10000 : Shape := ⟨2, ![512, 10000]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S512x10000, .f32⟩
  | .local _ .vmem, ⟨3, _⟩ => ⟨S512x10000, .f32⟩
  | .local _ .vmem, ⟨4, _⟩ => ⟨S512x128, .f32⟩
  | .local _ .vmem, ⟨5, _⟩ => ⟨S512x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S512x10000_S512x10000_0_0 : ∀ a, (![0, 0] : Fin 2 → Nat) a + S512x10000.size a ≤ S512x10000.size a
  h_S512x10000 : 0 < S512x10000.numel
  inb_S512x128_S512x128_0_0 : ∀ a, (![0, 0] : Fin 2 → Nat) a + S512x128.size a ≤ S512x128.size a
  h_S512x128 : 0 < S512x128.numel
  dot_S10000x128_S128x128_S10000x128_1_0_0_1_n_n_wf : DotDims.WF S10000x128 S128x128 S10000x128 [1] [0] [0] [1] [] []
  dot_S512x10000_S10000x128_S512x128_1_0_0_1_n_n_wf : DotDims.WF S512x10000 S10000x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x10000.size a < S10000x10000.size a
  hwx0_2 : ∀ i : grid0.Coords, EltTy.bits .f32 = 32 ∨ (Rect.unit (s := S10000x10000) (fun a => cc0_transform_2 i a * S512x10000.size a) (fun a => (Pipeline.Clip.of (cc0_transform_2 i a) (S512x10000.size a) (S10000x10000.size a)).extent (S512x10000.size a)) fun a => Pipeline.Clip.inb (Pipeline.Clip.ok_of (hstart0_2 i a))).WholeWords (EltTy.packing .f32)
  hwxs0_2 : ∀ i : grid0.Coords, EltTy.bits .f32 = 32 ∨ (Rect.unit (s := S512x10000) (fun _ => 0) (fun a => (Pipeline.Clip.of (cc0_transform_2 i a) (S512x10000.size a) (S10000x10000.size a)).extent (S512x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x128.size a < S10000x128.size a
  hwx0_3 : ∀ i : grid0.Coords, EltTy.bits .f32 = 32 ∨ (Rect.unit (s := S10000x128) (fun a => cc0_transform_3 i a * S512x128.size a) (fun a => (Pipeline.Clip.of (cc0_transform_3 i a) (S512x128.size a) (S10000x128.size a)).extent (S512x128.size a)) fun a => Pipeline.Clip.inb (Pipeline.Clip.ok_of (hstart0_3 i a))).WholeWords (EltTy.packing .f32)
  hwxs0_3 : ∀ i : grid0.Coords, EltTy.bits .f32 = 32 ∨ (Rect.unit (s := S512x128) (fun _ => 0) (fun a => (Pipeline.Clip.of (cc0_transform_3 i a) (S512x128.size a) (S10000x128.size a)).extent (S512x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S512x10000_S10000x128_S512x128_1_0_0_1_n_n : DotDims S512x10000 S10000x128 S512x128 where
  lhsContracting := [1]
  rhsContracting := [0]
  lhsNonContracting := [0]
  rhsNonContracting := [1]
  lhsBatch := []
  rhsBatch := []
  wf := dot_S512x10000_S10000x128_S512x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S512x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S512x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyBits.lean ====
/-
  The kernel body as a Hoare triple, once per control case.  The body computes, at the first grid point only,
  the product `features · weight` into a scratch buffer that persists across the grid; at every point it then
  stores `max(adj_tile · scratch, 0)` into the output tile.  Both triples are exact: they name what each buffer
  holds afterwards as the body's two pure payloads applied to what the buffers held before.
-/
import proofs.«158859_g13073880449099_cont_sun_m_1192_2_alg».proof.Proof.Gen.Kernel.Frame
import proofs.«158859_g13073880449099_cont_sun_m_1192_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition: the grid coordinate is zero. -/
abbrev atFirst (i : grid0.Coords) : Prop :=
  (Scalar.cmpi .ne (Scalar.extui (Scalar.cmpi .eq (BitVec.ofNat 32 (i 0).val) 0#32)) 0#32) = 1#1

/-- It holds exactly at the first of the twenty grid points. -/
theorem atFirst_iff : ∀ t : Fin cfg0.N, atFirst (grid0.coords t) ↔ t.val = 0 :=
  (by decide +kernel : ∀ t : Fin grid0.N, atFirst (grid0.coords t) ↔ t.val = 0)

/-- The scratch operand: a whole buffer of the kernel's own, passed beside the windows. -/
abbrev scM : Memref sig .tc .vmem S10000x128 .f32 := Memref.whole cc0_scratch0

theorem hz2 : (![0, 0] : Fin 2 → Nat) = fun _ => 0 := funext fun a => by fin_cases a <;> rfl

/-- One store through the whole-shape rectangle at zero offsets covers every index. -/
theorem cover_unit_zero {Val : EltTy → Type} {S : Shape} {e : EltTy} {off : Fin S.rank → Nat} (h : off = fun _ => 0)
    (inb : ∀ a, off a + S.size a ≤ S.size a) (w : S.Idx → Val e) (y : S.Idx) :
    ∃ p ∈ [(⟨Rect.unit off S.size inb, w⟩ : View.Piece Val S e)], y ∈ p.1.set :=
  ⟨_, List.mem_singleton_self _, View.mem_set_unit_zero h inb y⟩

/-- Away from the first point the scratch is only read: the output tile ends at `max(X2 · S, 0)`, everything
    else as it was. -/
theorem body_rest (c : Dev nD) (i : grid0.Coords) (hc : ¬atFirst i)
    (arg1 : Memref sig .tc .vmem S10000x128 .f32) (h1 : arg1.IsWhole) (arg2 : Memref sig .tc .vmem S128x128 .f32) (h2 : arg2.IsWhole)
    (arg3 : Memref sig .tc .vmem S512x10000 .f32) (h3 : arg3.IsWhole) (arg4 : Memref sig .tc .vmem S512x128 .f32) (h4 : arg4.IsWhole)
    (X0 : Vec F S10000x128 .f32) (X1 : Vec F S128x128 .f32) (X2 : Vec F S512x10000 .f32) (S : Vec F S10000x128 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ owns (c : Thread nD τ) scM fullShare S
        ∗ (iprop(owns (c : Thread nD τ) arg1 fullShare X0 ∗ owns (c : Thread nD τ) arg2 fullShare X1 ∗ owns (c : Thread nD τ) arg3 fullShare X2
            ∗ owns (c : Thread nD τ) arg4 fullShare (k0_pay2 X2 S) ∗ owns (c : Thread nD τ) scM fullShare S) -∗ K ⟨⟩))
      ⊢ wp frame (wpE (defs₀ (F := F)) Variants.none c none) E
          (cc0__gcn_kernel i arg1 h1 arg2 h2 arg3 h3 arg4 h4 scM (Memref.isWhole_whole _)) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := h1.eq_unread hf0; obtain rfl := h2.eq_unread hf1; obtain rfl := h3.eq_unread hf2
  obtain rfl := (Memref.isWhole_whole cc0_scratch0).eq_unread hfs
  sl_exec (disch := first | exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr
    swap; · iexact H3
    ipureintro
    rw [View.read_writes_eq_canon _ _ _ (cover_unit_zero hz2 _ _),
      View.canon_unit_zero hz2]
    simp only [View.readAt_eq_ld, h3.read_unread, (Memref.isWhole_whole cc0_scratch0).read_unread,
      View.ld_unit_zero (S := S512x10000) hz2, View.ld_unit_zero (S := S10000x128) hz2]
  · iexists _; isplitr; · ipureintro; exact (Memref.isWhole_whole cc0_scratch0).read_unread _
    iexact HS

/-- At the first point the scratch is filled with `X0 · X1` and then read: the output tile ends at
    `max(X2 · (X0 · X1), 0)`, the scratch at `X0 · X1` whatever it held, the inputs as they were. -/
theorem body_first (c : Dev nD) (i : grid0.Coords) (hc : atFirst i)
    (arg1 : Memref sig .tc .vmem S10000x128 .f32) (h1 : arg1.IsWhole) (arg2 : Memref sig .tc .vmem S128x128 .f32) (h2 : arg2.IsWhole)
    (arg3 : Memref sig .tc .vmem S512x10000 .f32) (h3 : arg3.IsWhole) (arg4 : Memref sig .tc .vmem S512x128 .f32) (h4 : arg4.IsWhole)
    (X0 : Vec F S10000x128 .f32) (X1 : Vec F S128x128 .f32) (X2 : Vec F S512x10000 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ (∃ d, owns (c : Thread nD τ) scM fullShare d)
        ∗ (iprop(owns (c : Thread nD τ) arg1 fullShare X0 ∗ owns (c : Thread nD τ) arg2 fullShare X1 ∗ owns (c : Thread nD τ) arg3 fullShare X2
            ∗ owns (c : Thread nD τ) arg4 fullShare (k0_pay2 X2 (k0_pay1 X0 X1)) ∗ owns (c : Thread nD τ) scM fullShare (k0_pay1 X0 X1)) -∗ K ⟨⟩))
      ⊢ wp frame (wpE (defs₀ (F := F)) Variants.none c none) E
          (cc0__gcn_kernel i arg1 h1 arg2 h2 arg3 h3 arg4 h4 scM (Memref.isWhole_whole _)) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  obtain rfl := h1.eq_unread hf0; obtain rfl := h2.eq_unread hf1; obtain rfl := h3.eq_unread hf2
  sl_exec (disch := first | exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr
    swap; · iexact H3
    ipureintro
    rw [View.read_writes_eq_canon _ _ _ (cover_unit_zero hz2 _ _),
      View.canon_unit_zero hz2]
    sl_unfold_run_names
    rw [View.readCov_unit_zero _ hz2]
    simp only [View.readAt_eq_ld, h1.read_unread, h2.read_unread, h3.read_unread,
      View.ld_unit_zero (S := S512x10000) hz2, View.ld_unit_zero (S := S10000x128) hz2, View.ld_unit_zero (S := S128x128) hz2]
  · iexists _; isplitr
    swap; · iexact HS
    ipureintro
    sl_unfold_run_names
    rw [View.read_writes_eq_canon _ _ _ (cover_unit_zero hz2 _ _),
      View.canon_unit_zero hz2]
    simp only [View.readAt_eq_ld, h1.read_unread, h2.read_unread,
      View.ld_unit_zero (S := S10000x128) hz2, View.ld_unit_zero (S := S128x128) hz2]

end Cert.Kernel.Hand

end
-- ==== Proof.FrameBits.lean ====
/-
  The frame of the word-level program: it runs to the end without a fault and leaves its three argument arrays
  as they were.  Nothing is said here of what the output array holds, so the output window's staging buffer is
  handed to the body at any contents and taken back at any contents; the adjacency window's last block overhangs
  the array, so its buffer is described only on the rows inside the array; the scratch holds anything.
-/
import proofs.«158859_g13073880449099_cont_sun_m_1192_2_alg».proof.Proof.Gen.Kernel.Frame
import proofs.«158859_g13073880449099_cont_sun_m_1192_2_alg».proof.Proof.Gen.Kernel.Skeleton
import proofs.«158859_g13073880449099_cont_sun_m_1192_2_alg».proof.Proof.BodyBits
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window: the one whose contents this frame does not name. -/
def forgets : Fin 4 → Bool := fun w => w.val == 3

/-- The proof data: the arrays as launched; after the body the two resident inputs' buffers at their (whole-array)
    blocks, the adjacency buffer at its row tile on the rows inside the array (zero below them), the output's
    unnamed; the invariant the scratch and the generator register at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Scalar.ofBits .f32 0#32) (iblk m c 2 t)
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = win0_2.fill (grid0.coords t) (fun _ => Scalar.ofBits .f32 0#32) (iblk m c 2 t) := by dsimp only [dats]

/-- The resident inputs' buffers hold their blocks at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- The adjacency buffer is fetched at every point: its row tile on the rows inside the array, `d` below. -/
theorem before_2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk; rw [A_eq m c 2]; try rfl

/-- The class invariant, the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

abbrev ms_0 (t : Fin cfg0.N) : Memref sig .tc .vmem S10000x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S128x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x10000 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S512x128 .f32 := win0_3.stage (cfg0.slots t 3)
abbrev hs_3 (t : Fin cfg0.N) : (ms_3 t).IsWhole := hstage0_3 ((cfg0.slots t 3).cast nbuf0_3)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ X, owns (c : Thread nD τ) (ms_3 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ (∃ d, owns (c : Thread nD τ) (ms_2 t) fullShare (win0_2.fill (grid0.coords t) d (win0_2.cut (grid0.coords t) ((dats m 0 c).after 2 t))))
    ∗ (∃ X, owns (c : Thread nD τ) (ms_3 t) fullShare X))

/-- The body at any point, from the two exact triples: at the first point the scratch may hold anything, at the
    others whatever it holds is what the triple is stated over; either way the scratch is handed back at some
    contents, the inputs' buffers as they were, the output's at something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, win0_2.cut_fill]
  rw [show (dats m 0 c).Φ t.castSucc = Pipeline.ΦA spec0 c from rfl, PhiA_eq]
  iintro ⟨⟨⟨%ds, HS⟩, Hg⟩, Ho, ⟨%d0, H0⟩, ⟨%d1, H1⟩, ⟨%d2, H2⟩, ⟨%X3, H3⟩⟩
  by_cases hz : t.val = 0
  · iapply (body_first (F := F) c (grid0.coords t) ((atFirst_iff t).mpr hz) (ms_0 t) (hs_0 t) (ms_1 t) (hs_1 t) (ms_2 t) (hs_2 t) (ms_3 t) (hs_3 t)
      (iblk m c 0 t) (iblk m c 1 t) (win0_2.fill (grid0.coords t) d2 (iblk m c 2 t)) Set.univ _)
    isplitl [H0]; · iexact H0
    isplitl [H1]; · iexact H1
    isplitl [H2]; · iexact H2
    isplitl [H3]; · iexists _; iexact H3
    isplitl [HS]; · iexists _; iexact HS
    iintro ⟨H0, H1, H2, H3, HS⟩
    isplitl [HS Hg]
    · isplitl [HS]
      · iexists _; iexact HS
      iexact Hg
    isplitl [Ho]; · iexact Ho
    isplitl [H0]; · iexact H0
    isplitl [H1]; · iexact H1
    isplitl [H2]; · iexists d2; iexact H2
    iexists _; iexact H3
  · iapply (body_rest (F := F) c (grid0.coords t) (fun h => hz ((atFirst_iff t).mp h)) (ms_0 t) (hs_0 t) (ms_1 t) (hs_1 t) (ms_2 t) (hs_2 t) (ms_3 t) (hs_3 t)
      (iblk m c 0 t) (iblk m c 1 t) (win0_2.fill (grid0.coords t) d2 (iblk m c 2 t)) ds Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexists _; iexact HS
      iexact Hg
    isplitl [Ho]; · iexact Ho
    isplitl [H0]; · iexact H0
    isplitl [H1]; · iexact H1
    isplitl [H2]; · iexists d2; iexact H2
    iexists _; iexact H3

/-- The library's body obligation, at every point. -/
theorem body_obligation (c : Dev nD) :
    BodyObligationLoose (dats (F := F) m 0 c) (defs₀ (F := F)) Variants.none () Set.univ forgets := fun t => by
  rw [bigSep_W0, bigSep_W0]
  exact sound_body m c t

-- the launch theorem's implicit arguments are found by unifying its conclusion with this one
set_option backward.isDefEq.respectTransparency.types false in
/-- Every weakly fair execution of @main terminates without a fault; every input array of the pipeline ends as the
    region found it, and nothing is stated of the output array. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame claim's post: the three argument arrays are inputs of the pipeline, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 2 rfl _) _) ((h c).1 2)).trans ((A_eq m c 2).trans (V_main_arg1 m c)),
     (Eq.mp (congrFun (((dats m 0 c).toRForget forgets).ArrAt_in 1 rfl _) _) ((h c).1 1)).trans ((A_eq m c 1).trans (V_main_arg2 m c))⟩)
    (run_main m ρ)

end Cert.Kernel.Hand

end
-- ==== Proof.BodyIdeal.lean ====
/-
  The kernel body as a Hoare triple, once per control case.  The body computes, at the first grid point only,
  the product `features · weight` into a scratch buffer that persists across the grid; at every point it then
  stores `max(adj_tile · scratch, 0)` into the output tile.  Both triples are exact: they name what each buffer
  holds afterwards as the body's two pure payloads applied to what the buffers held before.
-/
import proofs.«158859_g13073880449099_cont_sun_m_1192_2_alg».proof.Proof.Gen.KernelIdeal.Frame
import proofs.«158859_g13073880449099_cont_sun_m_1192_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition: the grid coordinate is zero. -/
abbrev atFirst (i : grid0.Coords) : Prop :=
  (Scalar.cmpi .ne (Scalar.extui (Scalar.cmpi .eq (BitVec.ofNat 32 (i 0).val) 0#32)) 0#32) = 1#1

/-- It holds exactly at the first of the twenty grid points. -/
theorem atFirst_iff : ∀ t : Fin cfg0.N, atFirst (grid0.coords t) ↔ t.val = 0 :=
  (by decide +kernel : ∀ t : Fin grid0.N, atFirst (grid0.coords t) ↔ t.val = 0)

/-- The scratch operand: a whole buffer of the kernel's own, passed beside the windows. -/
abbrev scM : Memref sig .tc .vmem S10000x128 .f32 := Memref.whole cc0_scratch0

theorem hz2 : (![0, 0] : Fin 2 → Nat) = fun _ => 0 := funext fun a => by fin_cases a <;> rfl

/-- One store through the whole-shape rectangle at zero offsets covers every index. -/
theorem cover_unit_zero {Val : EltTy → Type} {S : Shape} {e : EltTy} {off : Fin S.rank → Nat} (h : off = fun _ => 0)
    (inb : ∀ a, off a + S.size a ≤ S.size a) (w : S.Idx → Val e) (y : S.Idx) :
    ∃ p ∈ [(⟨Rect.unit off S.size inb, w⟩ : View.Piece Val S e)], y ∈ p.1.set :=
  ⟨_, List.mem_singleton_self _, View.mem_set_unit_zero h inb y⟩

/-- Away from the first point the scratch is only read: the output tile ends at `max(X2 · S, 0)`, everything
    else as it was. -/
theorem body_rest (c : Dev nD) (i : grid0.Coords) (hc : ¬atFirst i)
    (arg1 : Memref sig .tc .vmem S10000x128 .f32) (h1 : arg1.IsWhole) (arg2 : Memref sig .tc .vmem S128x128 .f32) (h2 : arg2.IsWhole)
    (arg3 : Memref sig .tc .vmem S512x10000 .f32) (h3 : arg3.IsWhole) (arg4 : Memref sig .tc .vmem S512x128 .f32) (h4 : arg4.IsWhole)
    (X0 : Vec F S10000x128 .f32) (X1 : Vec F S128x128 .f32) (X2 : Vec F S512x10000 .f32) (S : Vec F S10000x128 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ owns (c : Thread nD τ) scM fullShare S
        ∗ (iprop(owns (c : Thread nD τ) arg1 fullShare X0 ∗ owns (c : Thread nD τ) arg2 fullShare X1 ∗ owns (c : Thread nD τ) arg3 fullShare X2
            ∗ owns (c : Thread nD τ) arg4 fullShare (k0_pay2 X2 S) ∗ owns (c : Thread nD τ) scM fullShare S) -∗ K ⟨⟩))
      ⊢ wp frame (wpE (defs₀ (F := F)) Variants.none c none) E
          (cc0__gcn_kernel i arg1 h1 arg2 h2 arg3 h3 arg4 h4 scM (Memref.isWhole_whole _)) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := h1.eq_unread hf0; obtain rfl := h2.eq_unread hf1; obtain rfl := h3.eq_unread hf2
  obtain rfl := (Memref.isWhole_whole cc0_scratch0).eq_unread hfs
  sl_exec (disch := first | exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr
    swap; · iexact H3
    ipureintro
    rw [View.read_writes_eq_canon _ _ _ (cover_unit_zero hz2 _ _),
      View.canon_unit_zero hz2]
    simp only [View.readAt_eq_ld, h3.read_unread, (Memref.isWhole_whole cc0_scratch0).read_unread,
      View.ld_unit_zero (S := S512x10000) hz2, View.ld_unit_zero (S := S10000x128) hz2]
  · iexists _; isplitr; · ipureintro; exact (Memref.isWhole_whole cc0_scratch0).read_unread _
    iexact HS

/-- At the first point the scratch is filled with `X0 · X1` and then read: the output tile ends at
    `max(X2 · (X0 · X1), 0)`, the scratch at `X0 · X1` whatever it held, the inputs as they were. -/
theorem body_first (c : Dev nD) (i : grid0.Coords) (hc : atFirst i)
    (arg1 : Memref sig .tc .vmem S10000x128 .f32) (h1 : arg1.IsWhole) (arg2 : Memref sig .tc .vmem S128x128 .f32) (h2 : arg2.IsWhole)
    (arg3 : Memref sig .tc .vmem S512x10000 .f32) (h3 : arg3.IsWhole) (arg4 : Memref sig .tc .vmem S512x128 .f32) (h4 : arg4.IsWhole)
    (X0 : Vec F S10000x128 .f32) (X1 : Vec F S128x128 .f32) (X2 : Vec F S512x10000 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ (∃ d, owns (c : Thread nD τ) scM fullShare d)
        ∗ (iprop(owns (c : Thread nD τ) arg1 fullShare X0 ∗ owns (c : Thread nD τ) arg2 fullShare X1 ∗ owns (c : Thread nD τ) arg3 fullShare X2
            ∗ owns (c : Thread nD τ) arg4 fullShare (k0_pay2 X2 (k0_pay1 X0 X1)) ∗ owns (c : Thread nD τ) scM fullShare (k0_pay1 X0 X1)) -∗ K ⟨⟩))
      ⊢ wp frame (wpE (defs₀ (F := F)) Variants.none c none) E
          (cc0__gcn_kernel i arg1 h1 arg2 h2 arg3 h3 arg4 h4 scM (Memref.isWhole_whole _)) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  obtain rfl := h1.eq_unread hf0; obtain rfl := h2.eq_unread hf1; obtain rfl := h3.eq_unread hf2
  sl_exec (disch := first | exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr
    swap; · iexact H3
    ipureintro
    rw [View.read_writes_eq_canon _ _ _ (cover_unit_zero hz2 _ _),
      View.canon_unit_zero hz2]
    sl_unfold_run_names
    rw [View.readCov_unit_zero _ hz2]
    simp only [View.readAt_eq_ld, h1.read_unread, h2.read_unread, h3.read_unread,
      View.ld_unit_zero (S := S512x10000) hz2, View.ld_unit_zero (S := S10000x128) hz2, View.ld_unit_zero (S := S128x128) hz2]
  · iexists _; isplitr
    swap; · iexact HS
    ipureintro
    sl_unfold_run_names
    rw [View.read_writes_eq_canon _ _ _ (cover_unit_zero hz2 _ _),
      View.canon_unit_zero hz2]
    simp only [View.readAt_eq_ld, h1.read_unread, h2.read_unread,
      View.ld_unit_zero (S := S10000x128) hz2, View.ld_unit_zero (S := S128x128) hz2]

end Cert.KernelIdeal.Hand

end
-- ==== Proof.PayIdeal.lean ====
/-
  The body's two pure payloads at the ideal instance.  The first, `features · weight` into a zero accumulator, is
  the same sum over the contracted axis as the reference's first product, so the two are one function.  The second,
  at an index `p` of the output tile, is `max(Σ_k A[p₀, k] · S[k, p₁], 0)`: row `p₀` of the adjacency tile against
  column `p₁` of the scratch — in particular it reads the adjacency tile only along row `p₀`.
-/
import proofs.«158859_g13073880449099_cont_sun_m_1192_2_alg».proof.Proof.Gen.KernelIdeal.Skeleton
import proofs.«158859_g13073880449099_cont_sun_m_1192_2_alg».proof.Proof.Gen.ReferenceIdeal.Read
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic

/-- The scratch's contents are the reference's first product: both are `Σ_j X0[q₀, j] · X1[j, q₁]` over the one
    contracted axis, the kernel's into a zero accumulator. -/
theorem pay1_eq (X0 : Vec Ideal S10000x128 .f32) (X1 : Vec Ideal S128x128 .f32) :
    k0_pay1 (F := Ideal) X0 X1 = Cert.ReferenceIdeal.Read.val_main_v0 (F := Ideal) X0 X1 := by
  funext j
  unfold k0_pay1 Cert.ReferenceIdeal.Read.val_main_v0
  rw [shapeCast_self]
  simp only [matmul, Host.dotGeneral]
  rw [Ideal.matmul_constant_zero_apply, Ideal.dotGeneral_apply]
  rfl

/-- Row `p₀`, column `k` of the adjacency tile; -/
abbrev lidx (p : S512x128.Idx) (k : Fin 10000) : S512x10000.Idx := fun a => match a with
  | ⟨0, _⟩ => ⟨(p 0).val, (p 0).isLt⟩
  | ⟨1, _⟩ => ⟨k.val, k.isLt⟩
/-- row `k`, column `p₁` of the scratch. -/
abbrev ridx (p : S512x128.Idx) (k : Fin 10000) : S10000x128.Idx := fun a => match a with
  | ⟨0, _⟩ => ⟨k.val, k.isLt⟩
  | ⟨1, _⟩ => ⟨(p 1).val, (p 1).isLt⟩

theorem lhs_0 (i : S512x128.Idx) (q : dot_S512x10000_S10000x128_S512x128_1_0_0_1_n_n.contr.Idx) : (dot_S512x10000_S10000x128_S512x128_1_0_0_1_n_n.lhsIdx i q 0).val = (i 0).val := by
  unfold DotDims.lhsIdx
  rw [dif_neg (show ¬(0 : Fin S512x10000.rank) ∈ dot_S512x10000_S10000x128_S512x128_1_0_0_1_n_n.lhsBatch by decide), dif_pos (show (0 : Fin S512x10000.rank) ∈ dot_S512x10000_S10000x128_S512x128_1_0_0_1_n_n.lhsNonContracting by decide)]
  rfl
theorem lhs_1 (i : S512x128.Idx) (q : dot_S512x10000_S10000x128_S512x128_1_0_0_1_n_n.contr.Idx) : (dot_S512x10000_S10000x128_S512x128_1_0_0_1_n_n.lhsIdx i q 1).val = (q ⟨0, by decide⟩).val :=
  dot_S512x10000_S10000x128_S512x128_1_0_0_1_n_n.lhsIdx_val_of_single rfl i q
theorem rhs_0 (i : S512x128.Idx) (q : dot_S512x10000_S10000x128_S512x128_1_0_0_1_n_n.contr.Idx) : (dot_S512x10000_S10000x128_S512x128_1_0_0_1_n_n.rhsIdx i q 0).val = (q ⟨0, by decide⟩).val :=
  dot_S512x10000_S10000x128_S512x128_1_0_0_1_n_n.rhsIdx_val_of_single rfl i q
theorem rhs_1 (i : S512x128.Idx) (q : dot_S512x10000_S10000x128_S512x128_1_0_0_1_n_n.contr.Idx) : (dot_S512x10000_S10000x128_S512x128_1_0_0_1_n_n.rhsIdx i q 1).val = (i 1).val := by
  unfold DotDims.rhsIdx
  rw [dif_neg (show ¬(1 : Fin S10000x128.rank) ∈ dot_S512x10000_S10000x128_S512x128_1_0_0_1_n_n.rhsBatch by decide), dif_pos (show (1 : Fin S10000x128.rank) ∈ dot_S512x10000_S10000x128_S512x128_1_0_0_1_n_n.rhsNonContracting by decide)]
  rfl

/-- The output tile at an index: the contraction of one row of the adjacency tile with one column of the scratch,
    then the maximum with zero. -/
theorem pay2_apply (A : Vec Ideal S512x10000 .f32) (S : Vec Ideal S10000x128 .f32) (p : S512x128.Idx) :
    k0_pay2 (F := Ideal) A S p
      = FloatOps.maximumf (F := Ideal) (∑ k : Fin 10000, A (lidx p k) * S (ridx p k)) (Scalar.ofBits (F := Ideal) .f32 0x00000000#32) := by
  unfold k0_pay2
  show FloatOps.maximumf (F := Ideal) (FloatOps.matmul dot_S512x10000_S10000x128_S512x128_1_0_0_1_n_n none A S (constant S512x128 .f32 0x00000000#32) p) _ = _
  rw [Ideal.matmul_constant_zero_apply, ← Equiv.sum_comp (ValueIdx.contrEquiv1 dot_S512x10000_S10000x128_S512x128_1_0_0_1_n_n 10000 rfl rfl).symm]
  refine congrArg (fun x => FloatOps.maximumf (F := Ideal) x _) (Finset.sum_congr rfl fun k _ => ?_)
  have hk := ValueIdx.contrEquiv1_symm_val dot_S512x10000_S10000x128_S512x128_1_0_0_1_n_n 10000 rfl rfl k
  have el : dot_S512x10000_S10000x128_S512x128_1_0_0_1_n_n.lhsIdx p ((ValueIdx.contrEquiv1 dot_S512x10000_S10000x128_S512x128_1_0_0_1_n_n 10000 rfl rfl).symm k) = lidx p k := funext fun a => Fin.ext (by
    match a with
    | ⟨0, _⟩ => exact lhs_0 _ _
    | ⟨1, _⟩ => exact (lhs_1 _ _).trans hk)
  have er : dot_S512x10000_S10000x128_S512x128_1_0_0_1_n_n.rhsIdx p ((ValueIdx.contrEquiv1 dot_S512x10000_S10000x128_S512x128_1_0_0_1_n_n 10000 rfl rfl).symm k) = ridx p k := funext fun a => Fin.ext (by
    match a with
    | ⟨0, _⟩ => exact (rhs_0 _ _).trans hk
    | ⟨1, _⟩ => exact rhs_1 _ _)
  rw [el, er]

/-- Two adjacency tiles that agree along row `p₀` give the same output at `p`. -/
theorem pay2_row (A A' : Vec Ideal S512x10000 .f32) (S : Vec Ideal S10000x128 .f32) (p : S512x128.Idx)
    (h : ∀ k : Fin 10000, A (lidx p k) = A' (lidx p k)) : k0_pay2 (F := Ideal) A S p = k0_pay2 (F := Ideal) A' S p := by
  rw [pay2_apply, pay2_apply]
  exact congrArg (fun x => FloatOps.maximumf (F := Ideal) x _) (Finset.sum_congr rfl fun k _ => by rw [h k])

end Cert.KernelIdeal.Pay

end
-- ==== Proof.RunIdeal.lean ====
/-
  The idealized kernel's run, with what it computes.  The proof data name every staging buffer after the body at
  every grid point: the two resident inputs at the whole arrays, the adjacency buffer at its row tile on the rows
  inside the array, the output buffer at `max(tile · (features · weight), 0)`; and the region invariant carries the
  scratch, which holds anything before the first point and `features · weight` from then on.  The last adjacency
  tile overhangs the array by 240 rows; what the fetch leaves there is unknown, but row `r` of the output tile reads
  only row `r` of the adjacency tile, so the rows that are written back do not depend on it.
-/
import proofs.«158859_g13073880449099_cont_sun_m_1192_2_alg».proof.Proof.BodyIdeal
import proofs.«158859_g13073880449099_cont_sun_m_1192_2_alg».proof.Proof.PayIdeal
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The word the proof data put where nothing is named. -/
abbrev zero32 : Elt Ideal .f32 := Scalar.ofBits (F := Ideal) .f32 0#32

/-- `features · weight` of the argument arrays as the region finds them: what the scratch holds after the first point. -/
def support (c : Dev nD) : Vec Ideal S10000x128 .f32 := k0_pay1 (F := Ideal) (V m c main_arg0) (V m c main_arg2)

/-- The printed index maps and cuts, decided once over the twenty grid points: the resident windows sit at block
    (0, 0); the adjacency and output windows at block (t, 0); both are cut alike on the row axis (512 rows, 272 at
    the last point) and not at all on the other. -/
theorem grid_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_2.xsize (grid0.coords t) (0 : Fin 2) = win0_3.xsize (grid0.coords t) (0 : Fin 2)
    ∧ win0_2.xsize (grid0.coords t) (1 : Fin 2) = 10000
    ∧ win0_3.xsize (grid0.coords t) (1 : Fin 2) = 128
    ∧ (t.val < 19 → win0_3.xsize (grid0.coords t) (0 : Fin 2) = 512)
    ∧ (t.val = 19 → win0_3.xsize (grid0.coords t) (0 : Fin 2) = 272)
    ∧ t.val ≤ 19 :=
  (by decide +kernel : ∀ t : Fin grid0.N, _)

/-- A resident input's block is the whole array. -/
theorem iblk0_eq (c : Dev nD) (t : Fin cfg0.N) : (iblk m c 0 t : S10000x128.Idx → Elt Ideal .f32) = V m c main_arg0 := by
  obtain ⟨e00, e01, -⟩ := grid_facts t
  unfold iblk
  funext y
  show V m c main_arg0 (((cfg0.win 0).blk t).view.emb y) = V m c main_arg0 y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega
theorem iblk1_eq (c : Dev nD) (t : Fin cfg0.N) : (iblk m c 1 t : S128x128.Idx → Elt Ideal .f32) = V m c main_arg2 := by
  obtain ⟨-, -, e10, e11, -⟩ := grid_facts t
  unfold iblk
  funext y
  show V m c main_arg2 (((cfg0.win 1).blk t).view.emb y) = V m c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The region invariant before position `n`: before the first point the scratch at anything; afterwards at
    `features · weight`; the generator register at some state throughout. -/
def PhiS (c : Dev nD) : ℕ → sProp 𝕄
  | 0 => Pipeline.ΦA spec0 c
  | _ + 1 => iprop(owns (c : Thread nD τ) scM fullShare (support m c) ∗ (∃ r, prngReg c r))

theorem PhiS_pos (c : Dev nD) (n : ℕ) (hz : n ≠ 0) :
    PhiS m c n = iprop(owns (c : Thread nD τ) scM fullShare (support m c) ∗ (∃ r, prngReg c r)) := by
  cases n with
  | zero => exact absurd rfl hz
  | succ n => rfl

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => zero32) (iblk m c 2 t)
    | ⟨3, _⟩ => k0_pay2 (F := Ideal) (win0_2.fill (grid0.coords t) (fun _ => zero32) (iblk m c 2 t)) (support m c)
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = win0_2.fill (grid0.coords t) (fun _ => zero32) (iblk m c 2 t) := by dsimp only [dats]
theorem after_3 (c : Dev nD) (t : Fin cfg0.N) :
    (dats m 0 c).after 3 t = k0_pay2 (F := Ideal) (win0_2.fill (grid0.coords t) (fun _ => zero32) (iblk m c 2 t)) (support m c) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- The adjacency buffer is fetched at every point: its row tile on the rows inside the array, `d` below. -/
theorem before_2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk; rw [A_eq m c 2]; try rfl
/-- The output buffer is written back at every point: the body finds it at contents nothing names. -/
theorem before_3 (c : Dev nD) (t : Fin cfg0.N) (d) : (dats m 0 c).before 3 t d = d := by
  refine (dats m 0 c).before_out_reset 3 rfl t ?_ d
  by_cases hz : t.val = 0
  · exact .inl hz
  · exact .inr ⟨hz, flush0_3 _⟩

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

abbrev ms_0 (t : Fin cfg0.N) : Memref sig .tc .vmem S10000x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S128x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x10000 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S512x128 .f32 := win0_3.stage (cfg0.slots t 3)
abbrev hs_3 (t : Fin cfg0.N) : (ms_3 t).IsWhole := hstage0_3 ((cfg0.slots t 3).cast nbuf0_3)

/-- Contents that the fetch moved do not depend on what the buffer held. -/
theorem fill_of_moved {α : Type} (i : grid0.Coords) (d d' : win0_2.block.Idx → α) (g : (win0_2.xblock i).Idx → α)
    {j : win0_2.block.Idx} (h : win0_2.moved i j = true) : win0_2.fill i d g j = win0_2.fill i d' g j := by
  unfold Window.fill; rw [dif_pos h, dif_pos h]

/-- Row `y₀` of the adjacency tile, for a row `y₀` of the output tile that is written back, lies inside the array. -/
theorem moved_row (t : Fin cfg0.N) (y : (win0_3.xblock (grid0.coords t)).Idx) (k : Fin 10000) :
    win0_2.moved (grid0.coords t) (lidx (win0_3.xinj (grid0.coords t) y) k) = true := by
  obtain ⟨-, -, -, -, -, -, -, -, ex0, ex1, -⟩ := grid_facts t
  refine (win0_2.moved_iff _ _).mpr fun a => ?_
  match a with
  | ⟨0, _⟩ => show (y 0).val < win0_2.xsize (grid0.coords t) (0 : Fin 2); rw [ex0]; exact (y 0).isLt
  | ⟨1, _⟩ => show k.val < win0_2.xsize (grid0.coords t) (1 : Fin 2); rw [ex1]; exact k.isLt

/-- The rows of the output tile that are written back do not depend on what the adjacency buffer holds below the
    array's end. -/
theorem cut_pay2 (t : Fin cfg0.N) (d d' : S512x10000.Idx → Elt Ideal .f32) (B : (win0_2.xblock (grid0.coords t)).Idx → Elt Ideal .f32)
    (S : Vec Ideal S10000x128 .f32) :
    win0_3.cut (grid0.coords t) (k0_pay2 (F := Ideal) (win0_2.fill (grid0.coords t) d B) S)
      = win0_3.cut (grid0.coords t) (k0_pay2 (F := Ideal) (win0_2.fill (grid0.coords t) d' B) S) := by
  funext y
  exact pay2_row _ _ _ _ fun k => fill_of_moved _ _ _ _ (moved_row t y k)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

/-- and what it returns: the resident inputs exactly, the two cut windows on the rows inside the array. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ (∃ d, owns (c : Thread nD τ) (ms_2 t) fullShare (win0_2.fill (grid0.coords t) d (win0_2.cut (grid0.coords t) ((dats m 0 c).after 2 t))))
    ∗ (∃ d, owns (c : Thread nD τ) (ms_3 t) fullShare (win0_3.fill (grid0.coords t) d (win0_3.cut (grid0.coords t) ((dats m 0 c).after 3 t)))))

/-- The body at any point.  At the first the scratch holds anything and ends at `features · weight`; at the others
    it holds that and is only read.  The output buffer ends at the payload of the adjacency buffer as fetched, which
    on the rows written back is the payload of the row tile (`cut_pay2`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, win0_2.cut_fill, iblk0_eq, iblk1_eq]
  rw [show (dats m 0 c).Φ t.succ = PhiS m c (t.val + 1) from rfl, PhiS_pos m c _ (Nat.succ_ne_zero _)]
  rw [show (dats m 0 c).Φ t.castSucc = PhiS m c t.val from rfl]
  by_cases hz : t.val = 0
  · rw [hz, show PhiS m c 0 = Pipeline.ΦA spec0 c from rfl, PhiA_eq]
    iintro ⟨⟨⟨%ds, HS⟩, Hg⟩, Ho, ⟨%d0, H0⟩, ⟨%d1, H1⟩, ⟨%d2, H2⟩, ⟨%d3, H3⟩⟩
    iapply (body_first (F := Ideal) c (grid0.coords t) ((atFirst_iff t).mpr hz) (ms_0 t) (hs_0 t) (ms_1 t) (hs_1 t) (ms_2 t) (hs_2 t) (ms_3 t) (hs_3 t)
      (V m c main_arg0) (V m c main_arg2) (win0_2.fill (grid0.coords t) d2 (iblk m c 2 t)) Set.univ _)
    isplitl [H0]; · iexact H0
    isplitl [H1]; · iexact H1
    isplitl [H2]; · iexact H2
    isplitl [H3]; · iexists _; iexact H3
    isplitl [HS]; · iexists _; iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexists d2; iexact H2
    iexists (k0_pay2 (F := Ideal) (win0_2.fill (grid0.coords t) d2 (iblk m c 2 t)) (support m c))
    change _ ⊢ owns (c : Thread nD τ) (ms_3 t) fullShare (win0_3.fill (α := Elt Ideal .f32) (grid0.coords t)
      (k0_pay2 (F := Ideal) (win0_2.fill (grid0.coords t) d2 (iblk m c 2 t)) (support m c))
      (win0_3.cut (α := Elt Ideal .f32) (grid0.coords t) (k0_pay2 (F := Ideal) (win0_2.fill (grid0.coords t) (fun _ => zero32) (iblk m c 2 t)) (support m c))))
    exact Eq.mpr (congrArg (fun Z => (_ ⊢ owns (c : Thread nD τ) (ms_3 t) fullShare Z))
      (win0_3.fill_congr_cut (grid0.coords t) (cut_pay2 t d2 (fun _ => zero32) (iblk m c 2 t) (support m c)))) .rfl
  · rw [PhiS_pos m c _ hz]
    iintro ⟨⟨HS, Hg⟩, Ho, ⟨%d0, H0⟩, ⟨%d1, H1⟩, ⟨%d2, H2⟩, ⟨%d3, H3⟩⟩
    iapply (body_rest (F := Ideal) c (grid0.coords t) (fun h => hz ((atFirst_iff t).mp h)) (ms_0 t) (hs_0 t) (ms_1 t) (hs_1 t) (ms_2 t) (hs_2 t) (ms_3 t) (hs_3 t)
      (V m c main_arg0) (V m c main_arg2) (win0_2.fill (grid0.coords t) d2 (iblk m c 2 t)) (support m c) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexact H0
    isplitl [H1]; · iexact H1
    isplitl [H2]; · iexists d2; iexact H2
    iexists (k0_pay2 (F := Ideal) (win0_2.fill (grid0.coords t) d2 (iblk m c 2 t)) (support m c))
    change _ ⊢ owns (c : Thread nD τ) (ms_3 t) fullShare (win0_3.fill (α := Elt Ideal .f32) (grid0.coords t)
      (k0_pay2 (F := Ideal) (win0_2.fill (grid0.coords t) d2 (iblk m c 2 t)) (support m c))
      (win0_3.cut (α := Elt Ideal .f32) (grid0.coords t) (k0_pay2 (F := Ideal) (win0_2.fill (grid0.coords t) (fun _ => zero32) (iblk m c 2 t)) (support m c))))
    exact Eq.mpr (congrArg (fun Z => (_ ⊢ owns (c : Thread nD τ) (ms_3 t) fullShare Z))
      (win0_3.fill_congr_cut (grid0.coords t) (cut_pay2 t d2 (fun _ => zero32) (iblk m c 2 t) (support m c)))) .rfl

/-- The library's body obligation, at every point. -/
theorem body_obligation (c : Dev nD) :
    BodyObligationLoose (dats m 0 c) (defs₀ (F := Ideal)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := Idealize.SL.BI.Entails.refl _

/-- After the last point the scratch's contents are forgotten again. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 20 := N_0; omega), PhiA_eq]
  iintro ⟨HS, Hg⟩
  isplitl [HS]
  · iexists _; iexact HS
  iexact Hg

-- the launch theorem's implicit arguments are found by unifying its conclusion with this one
set_option backward.isDefEq.respectTransparency.types false in
/-- Every weakly fair execution of @main terminates without a fault, and every array of the pipeline ends at what the
    library computes from the proof data: an input as the region found it, the output overwritten block by block. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

end Cert.KernelIdeal.Hand

end
-- ==== Proof.ValueIdeal.lean ====
/-
  The idealized kernel's result array.  What grid point `t` writes back — rows `512 t` to `512 t + 511` of the output,
  cut at row 10000 — is the same rows of `relu (adj · (features · weight))`, the function the reference computes: the
  sum over `k` of the adjacency row against the column of `features · weight`, then the maximum with zero.  The twenty
  blocks cover all ten thousand rows (row `r` is in block `r / 512`), so the array ends holding that function.
-/
import proofs.«158859_g13073880449099_cont_sun_m_1192_2_alg».proof.Proof.RunIdeal
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The reference's result as a function of the argument arrays as the region finds them. -/
def Gout (c : Dev nD) : S10000x128.Idx → Elt Ideal .f32 :=
  Cert.ReferenceIdeal.Read.val_main_v2 (F := Ideal) (V m c main_arg0) (V m c main_arg1) (V m c main_arg2)

/-- WHAT POINT `t` WRITES BACK is block `t` of the reference's function. -/
theorem flushed_eq (c : Dev nD) (t : Fin cfg0.N) :
    (dats m 0 c).flushed 3 t = ((cfg0.win 3).blk t).view.read (Elt Ideal) (Gout m c) := by
  show (cfg0.win 3).cut (grid0.coords t) ((dats m 0 c).after 3 t) = _
  rw [after_3]
  obtain ⟨-, -, -, -, e20, e21, e30, e31, -⟩ := grid_facts t
  funext y
  show k0_pay2 (F := Ideal) (win0_2.fill (grid0.coords t) (fun _ => zero32) (iblk m c 2 t)) (support m c) (win0_3.xinj (grid0.coords t) y)
    = Gout m c (((cfg0.win 3).blk t).view.emb y)
  rw [pay2_apply]
  unfold Gout
  rw [Cert.ReferenceIdeal.Read.val_main_v2_apply, Cert.ReferenceIdeal.Read.val_main_v1_apply,
    Cert.ReferenceIdeal.Read.val_main_call0_v0_apply, Cert.ReferenceIdeal.Read.val_main_call0_cst_apply]
  refine congrArg₂ (FloatOps.maximumf (F := Ideal)) (Finset.sum_congr rfl fun k _ => ?_) rfl
  -- the adjacency entry: row `y₀` of tile `t` is row `512 t + y₀` of the array
  have ha : win0_2.fill (grid0.coords t) (fun _ => zero32) (iblk m c 2 t) (lidx (win0_3.xinj (grid0.coords t) y) k)
      = V m c main_arg1 (Cert.ReferenceIdeal.Read.lidx_main_v1 (((cfg0.win 3).blk t).view.emb y) k) := by
    unfold Window.fill; rw [dif_pos (moved_row t y k)]
    unfold iblk
    show V m c main_arg1 (((cfg0.win 2).blk t).view.emb _) = _
    refine congrArg _ (funext fun a => Fin.ext ?_)
    match a with
    | ⟨0, _⟩ => show win0_2.index t (0 : Fin 2) * 512 + 1 * (y 0).val = win0_3.index t (0 : Fin 2) * 512 + 1 * (y 0).val; omega
    | ⟨1, _⟩ => show win0_2.index t (1 : Fin 2) * 10000 + 1 * k.val = k.val; omega
  -- the scratch entry: column `y₁` of `features · weight`
  have hs : support m c (ridx (win0_3.xinj (grid0.coords t) y) k)
      = Cert.ReferenceIdeal.Read.val_main_v0 (F := Ideal) (V m c main_arg0) (V m c main_arg2)
          (Cert.ReferenceIdeal.Read.ridx_main_v1 (((cfg0.win 3).blk t).view.emb y) k) := by
    unfold support; rw [pay1_eq]
    refine congrArg _ (funext fun a => Fin.ext ?_)
    match a with
    | ⟨0, _⟩ => rfl
    | ⟨1, _⟩ => show (y 1).val = win0_3.index t (1 : Fin 2) * 128 + 1 * (y 1).val; omega
  rw [ha, hs]

/-- An index of the array is in point `t`'s block iff each coordinate is in the block's range, cut at the array's end. -/
theorem mem_blk (t : Fin cfg0.N) (i : S10000x128.Idx) :
    i ∈ ((cfg0.win 3).blk t).view.set ↔ ∀ a : Fin 2, win0_3.index t a * S512x128.size a ≤ (i a).val
      ∧ (i a).val < win0_3.index t a * S512x128.size a + win0_3.xsize (grid0.coords t) a := by
  show i ∈ ((View.whole main_v0).slice (win0_3.rect t)).set ↔ _
  rw [View.set_slice_whole, Rect.mem_set_unit]
  exact Iff.rfl

/-- Row `r` of the array is in the block of point `r / 512`. -/
theorem cover (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 20 := N_0
  let t : Fin cfg0.N := ⟨(i 0).val / 512, by omega⟩
  have htv : t.val = (i 0).val / 512 := rfl
  obtain ⟨-, -, -, -, -, -, e30, e31, -, -, ex31, hlt, heq, hle⟩ := grid_facts t
  refine ⟨t, flush0_3 t, (mem_blk t i).mpr fun a => ?_⟩
  match a with
  | ⟨0, _⟩ =>
    show win0_3.index t (0 : Fin 2) * 512 ≤ (i 0).val ∧ (i 0).val < win0_3.index t (0 : Fin 2) * 512 + win0_3.xsize (grid0.coords t) (0 : Fin 2)
    rcases Nat.lt_or_ge t.val 19 with h | h
    · have := hlt h; omega
    · have := heq (by omega); omega
  | ⟨1, _⟩ =>
    show win0_3.index t (1 : Fin 2) * 128 ≤ (i 1).val ∧ (i 1).val < win0_3.index t (1 : Fin 2) * 128 + win0_3.xsize (grid0.coords t) (1 : Fin 2)
    omega

/-- THE ARRAY after the run: the reference's function of the argument arrays. -/
theorem final (c : Dev nD) : (dats m 0 c).arrAt 3 cfg0.N = Gout m c :=
  (dats m 0 c).arrAt_eq_of_cover 3 (Gout m c) (fun t _ => flushed_eq m c t) (cover)

/-- The frame run re-posted: the result array at the reference's function of the arguments, the arguments unchanged. -/
theorem run : θ_run defs (onTc (τ := τ) (main (F := Ideal))) ⟨m, fun _ => 0, ρ⟩ fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩)
    (run_main m ρ)

end Cert.KernelIdeal.Hand

end
-- ==== Proof.lean ====
/-
  One GCN layer, `relu (adj · (features · weight))` over f32[10000, 128], f32[10000, 10000], f32[128, 128]: a kernel on a
  grid of twenty row tiles of 512 rows against the plain two-product reference, equal over the extended reals.

  The kernel keeps `features` and `weight` resident, computes `features · weight` once, at the first grid point, into a
  scratch buffer that persists across the grid, and at every point stores `max(adj_tile · scratch, 0)` into the output
  tile.  10000 is not a multiple of 512: the last adjacency tile and the last output tile overhang their arrays by 240
  rows, which are fetched as words nothing names and are never written back.

  The three frames: the word-level kernel's by a run that names nothing of the output (Proof/FrameBits.lean); the
  idealized kernel's as a corollary of its value run; the reference's from its run.  No operation is rewritten by the
  idealization, so `preserves` states nothing.  `algebraic`: the idealized kernel's result array ends at the reference's
  own function of the argument arrays (Proof/ValueIdeal.lean) — the scratch is the reference's first product as one
  function (the same sum over the contracted axis), each output row is the same contraction of an adjacency row with it,
  then the same maximum with zero; the two groupings are identical, so no law of the extended reals beyond that is used
  and the inputs' finiteness is never opened.
-/
import proofs.«158859_g13073880449099_cont_sun_m_1192_2_alg».proof.Defs
import proofs.«158859_g13073880449099_cont_sun_m_1192_2_alg».proof.Proof.Gen.Kernel
import proofs.«158859_g13073880449099_cont_sun_m_1192_2_alg».proof.Proof.Gen.KernelIdeal
import proofs.«158859_g13073880449099_cont_sun_m_1192_2_alg».proof.Proof.Gen.ReferenceIdeal
import proofs.«158859_g13073880449099_cont_sun_m_1192_2_alg».proof.Proof.Gen.Pre_finite_inputs
import proofs.«158859_g13073880449099_cont_sun_m_1192_2_alg».proof.Proof.Gen.ReferenceIdeal.Run
import proofs.«158859_g13073880449099_cont_sun_m_1192_2_alg».proof.Proof.FrameBits
import proofs.«158859_g13073880449099_cont_sun_m_1192_2_alg».proof.Proof.ValueIdeal
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame (F := Bits) m ρ

theorem frame_kernelIdeal : Cert.frame_KernelIdeal := fun m ρ _ =>
  (θ_run Cert.KernelIdeal.defs _ _).mono (fun _ h c => (h c).2) (Cert.KernelIdeal.Hand.run m ρ)

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at one function of the (agreeing) argument arrays: the reference's own term. -/
theorem algebraic : Cert.algebraic_KernelIdeal_ReferenceIdeal := by
  intro m ρ m' ρ' _ hagree
  refine ⟨fun c => Cert.KernelIdeal.Hand.Gout m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
